-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg14 : FVec F S4096 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  main_v73

def fn_part3 {F : FTy → Type} [FloatOps F] (main_arg11 : FVec F S4096 .f32) (main_arg12 : FVec F S4096x4096 .f32) (main_arg13 : FVec F S4096x4096 .f32) (main_arg14 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_v63 main_v67

def fn_part2 {F : FTy → Type} [FloatOps F] (main_arg7 : FVec F S4096x4096 .f32) (main_arg8 : FVec F S4096 .f32) (main_arg9 : FVec F S4096x4096 .f32) (main_arg10 : FVec F S4096x4096 .f32) (main_arg11 : FVec F S4096 .f32) (main_arg12 : FVec F S4096x4096 .f32) (main_arg13 : FVec F S4096x4096 .f32) (main_arg14 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_v48 main_v49 main_v50

def fn_part1 {F : FTy → Type} [FloatOps F] (main_arg4 : FVec F S4096x4096 .f32) (main_arg5 : FVec F S4096 .f32) (main_arg6 : FVec F S4096x4096 .f32) (main_arg7 : FVec F S4096x4096 .f32) (main_arg8 : FVec F S4096 .f32) (main_arg9 : FVec F S4096x4096 .f32) (main_arg10 : FVec F S4096x4096 .f32) (main_arg11 : FVec F S4096 .f32) (main_arg12 : FVec F S4096x4096 .f32) (main_arg13 : FVec F S4096x4096 .f32) (main_arg14 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x4096 .f32) (main_arg1 : FVec F S1024x4096 .f32) (main_arg2 : FVec F S1024x4096 .f32) (main_arg3 : FVec F S4096x4096 .f32) (main_arg4 : FVec F S4096x4096 .f32) (main_arg5 : FVec F S4096 .f32) (main_arg6 : FVec F S4096x4096 .f32) (main_arg7 : FVec F S4096x4096 .f32) (main_arg8 : FVec F S4096 .f32) (main_arg9 : FVec F S4096x4096 .f32) (main_arg10 : FVec F S4096x4096 .f32) (main_arg11 : FVec F S4096 .f32) (main_arg12 : FVec F S4096x4096 .f32) (main_arg13 : FVec F S4096x4096 .f32) (main_arg14 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S4096x256 : Shape := ⟨2, ![4096, 256]⟩
abbrev S1x256 : Shape := ⟨2, ![1, 256]⟩

abbrev nBuf : Space → Nat
  | .hbm => 31
  | .vmem => 32
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S1024x4096, .bf16⟩
  | .hbm, ⟨16, _⟩ => ⟨S1024x4096, .bf16⟩
  | .hbm, ⟨17, _⟩ => ⟨S4096x4096, .bf16⟩
  | .hbm, ⟨18, _⟩ => ⟨S4096x4096, .bf16⟩
  | .hbm, ⟨19, _⟩ => ⟨S4096x4096, .bf16⟩
  | .hbm, ⟨20, _⟩ => ⟨S4096x4096, .bf16⟩
  | .hbm, ⟨21, _⟩ => ⟨S4096x4096, .bf16⟩
  | .hbm, ⟨22, _⟩ => ⟨S4096x4096, .bf16⟩
  | .hbm, ⟨23, _⟩ => ⟨S4096x4096, .bf16⟩
  | .hbm, ⟨24, _⟩ => ⟨S4096x4096, .bf16⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1024x4096, .f32⟩
  | .hbm, ⟨30, _⟩ => ⟨S1024x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x256, .f32⟩
  | .local _ .vmem, ⟨3, _⟩ => ⟨S1024x256, .f32⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x4096.size a
  hwx0_2 : ∀ i : grid0.Coords, EltTy.bits .f32 = 32 ∨ (Rect.block (s := S1024x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .bf16 = 32 ∨ (Rect.block (s := S4096x4096) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .bf16 = 32 ∨ (Rect.block (s := S4096x4096) S4096x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x4096.size a
  hwx0_5 : ∀ i : grid0.Coords, EltTy.bits .bf16 = 32 ∨ (Rect.block (s := S4096x4096) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x4096.size a
  hwx0_6 : ∀ i : grid0.Coords, EltTy.bits .bf16 = 32 ∨ (Rect.block (s := S4096x4096) S4096x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S4096x4096.size a
  hwx0_7 : ∀ i : grid0.Coords, EltTy.bits .bf16 = 32 ∨ (Rect.block (s := S4096x4096) S4096x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S4096x4096.size a
  hwx0_8 : ∀ i : grid0.Coords, EltTy.bits .bf16 = 32 ∨ (Rect.block (s := S4096x4096) S4096x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S4096x4096.size a
  hwx0_9 : ∀ i : grid0.Coords, EltTy.bits .bf16 = 32 ∨ (Rect.block (s := S4096x4096) S4096x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x256.size a ≤ S4096x4096.size a
  hwx0_10 : ∀ i : grid0.Coords, EltTy.bits .bf16 = 32 ∨ (Rect.block (s := S4096x4096) S4096x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x4096.size a
  hwx0_11 : ∀ i : grid0.Coords, EltTy.bits .f32 = 32 ∨ (Rect.block (s := S1x4096) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x4096.size a
  hwx0_12 : ∀ i : grid0.Coords, EltTy.bits .f32 = 32 ∨ (Rect.block (s := S1x4096) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x4096.size a
  hwx0_13 : ∀ i : grid0.Coords, EltTy.bits .f32 = 32 ∨ (Rect.block (s := S1x4096) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x4096.size a
  hwx0_14 : ∀ i : grid0.Coords, EltTy.bits .f32 = 32 ∨ (Rect.block (s := S1x4096) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S1024x4096.size a
  hwx0_15 : ∀ i : grid0.Coords, EltTy.bits .f32 = 32 ∨ (Rect.block (s := S1024x4096) S1024x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x256.size a ≤ S1024x4096.size a
  hwx0_16 : ∀ i : grid0.Coords, EltTy.bits .f32 = 32 ∨ (Rect.block (s := S1024x4096) S1024x256.size (cc0_transform_16 i) (hinb0_16 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S4096x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S4096x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S1024x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S1024x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S1024x16384 : Shape := ⟨2, ![1024, 16384]⟩
abbrev S1x16384 : Shape := ⟨2, ![1, 16384]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S4096x16384, .f32⟩
  | .hbm, ⟨16, _⟩ => ⟨S4096x16384, .f32⟩
  | .hbm, ⟨17, _⟩ => ⟨S16384, .f32⟩
  | .hbm, ⟨18, _⟩ => ⟨S1024x16384, .f32⟩
  | .hbm, ⟨19, _⟩ => ⟨S1024x16384, .f32⟩
  | .hbm, ⟨20, _⟩ => ⟨S1024x16384, .f32⟩
  | .hbm, ⟨21, _⟩ => ⟨S1x16384, .f32⟩
  | .hbm, ⟨22, _⟩ => ⟨S1024x16384, .f32⟩
  | .hbm, ⟨23, _⟩ => ⟨S1024x16384, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x4096, .f32⟩
  | .hbm, ⟨40, _⟩ => ⟨S1024x4096, .f32⟩
  | .hbm, ⟨41, _⟩ => ⟨S_, .f32⟩
  | .hbm, ⟨42, _⟩ => ⟨S1024x4096, .f32⟩
  | .hbm, ⟨43, _⟩ => ⟨S1024x4096, .f32⟩
  | .hbm, ⟨44, _⟩ => ⟨S1024x4096, .f32⟩
  | .hbm, ⟨45, _⟩ => ⟨S1024x4096, .f32⟩
  | .hbm, ⟨46, _⟩ => ⟨S1024x4096, .f32⟩
  | .hbm, ⟨47, _⟩ => ⟨S_, .f32⟩
  | .hbm, ⟨48, _⟩ => ⟨S1024x4096, .f32⟩
  | .hbm, ⟨49, _⟩ => ⟨S1024x4096, .f32⟩
  | .hbm, ⟨50, _⟩ => ⟨S_, .f32⟩
  | .hbm, ⟨51, _⟩ => ⟨S1024x4096, .f32⟩
  | .hbm, ⟨52, _⟩ => ⟨S1024x4096, .f32⟩
  | .hbm, ⟨53, _⟩ => ⟨S1024x4096, .f32⟩
  | .hbm, ⟨54, _⟩ => ⟨S1024x4096, .f32⟩
  | .hbm, ⟨55, _⟩ => ⟨S1024x4096, .f32⟩
  | .hbm, ⟨56, _⟩ => ⟨S1024x4096, .f32⟩
  | .hbm, ⟨57, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S4096x4096_S4096x4096_S4096x4096_S4096x4096_S4096x16384_d1 : Shape.Concatenates [S4096x4096, S4096x4096, S4096x4096, S4096x4096] S4096x16384 1
  concatenates_S4096_S4096_S4096_S4096_S16384_d0 : Shape.Concatenates [S4096, S4096, S4096, S4096] S16384 0
  bcast_S16384_S1x16384_1 : S16384.BroadcastsInDim S1x16384 (![1] : Fin 1 → Fin S1x16384.rank)
  bcast_S1x16384_S1024x16384_0_1 : S1x16384.BroadcastsInDim S1024x16384 (![0, 1] : Fin 2 → Fin S1024x16384.rank)
  slices_S1024x16384_S1024x4096_0_0 : S1024x16384.Slices ![0, 0] S1024x4096
  slices_S1024x16384_S1024x4096_0_4096 : S1024x16384.Slices ![0, 4096] S1024x4096
  slices_S1024x16384_S1024x4096_0_8192 : S1024x16384.Slices ![0, 8192] S1024x4096
  slices_S1024x16384_S1024x4096_0_12288 : S1024x16384.Slices ![0, 12288] S1024x4096
  bcast_S_S1024x4096 : S_.BroadcastsInDim S1024x4096 (![] : Fin 0 → Fin S1024x4096.rank)
  dot_S1024x4096_S4096x16384_S1024x16384_1_0_0_1_n_n_wf : DotDims.WF S1024x4096 S4096x16384 S1024x16384 [1] [0] [0] [1] [] []

variable [Facts₀]

def dot_S1024x4096_S4096x16384_S1024x16384_1_0_0_1_n_n : DotDims S1024x4096 S4096x16384 S1024x16384 where
  lhsContracting := [1]
  rhsContracting := [0]
  lhsNonContracting := [0]
  rhsNonContracting := [1]
  lhsBatch := []
  rhsBatch := []
  wf := dot_S1024x4096_S4096x16384_S1024x16384_1_0_0_1_n_n_wf

class Facts : Prop extends Facts₀ where

variable [Facts]
-- ==== Proof.Cell.lean ====
/-
  One step of an LSTM cell, entry by entry, on the extended reals.

  For a batch row `p` and a hidden column `n`, each of the four gates has the pre-activation
      z = (Σ_k x(p,k)·W(k,n) + Σ_k h(p,k)·U(k,n)) + b(n),
  the inner product of row `p` of the input with column `n` of the gate's input weights, plus the inner product of
  row `p` of the previous hidden state with column `n` of the gate's recurrent weights, plus the gate's bias at `n`.
  With σ(z) = 1 / (1 + e^(-z)) the new cell state and the new hidden state are
      c'(p,n) = σ(z_f)·c(p,n) + σ(z_i)·tanh(z_g),        h'(p,n) = σ(z_o)·tanh(c'(p,n)).
  Entry `(p,n)` depends on row `p` of `x` and `h`, on column `n` of the eight weight matrices, on entry `n` of the four
  biases and on `c(p,n)`, and on nothing else; so the same formula describes a computation that is handed only a band of
  columns of the weights, of the biases and of `c` (the formula is stated over rows and columns as plain functions for
  that reason) and a computation over the whole arrays.
-/
import Idealize.ShloMosaic.PureOps.Ideal
import Idealize.ShloMosaic.Lib.ValueIdx

noncomputable section

namespace Cert.LstmCell

open Idealize.ShloMosaic Idealize.ShloMosaic.ValueIdx
open scoped BigOperators

/-- A gate's pre-activation from a row of the input, a row of the previous hidden state, a column of the gate's input
    weights, a column of its recurrent weights and one bias entry: the two inner products added first, the bias last. -/
def preact (xr hr wc uc : Fin 4096 → EReal) (b : EReal) : EReal :=
  (∑ k : Fin 4096, xr k * wc k + ∑ k : Fin 4096, hr k * uc k) + b

/-- The new cell state from the input, forget and candidate pre-activations and the previous cell state:
    σ(z_f)·c + σ(z_i)·tanh(z_g). -/
def newCell (zi zf zg c : EReal) : EReal := Ideal.logistic zf * c + Ideal.logistic zi * Ideal.tanh zg

/-- The new hidden state from the output pre-activation and the new cell state: σ(z_o)·tanh(c'). -/
def newHidden (zo c' : EReal) : EReal := Ideal.logistic zo * Ideal.tanh c'

/-- The shapes of the arrays: batch by features, features by features, features. -/
abbrev SBD : Shape := ⟨2, ![1024, 4096]⟩
abbrev SDD : Shape := ⟨2, ![4096, 4096]⟩
abbrev SD : Shape := ⟨1, ![4096]⟩

/-- The fifteen arrays a step reads: input, previous hidden and cell state, and per gate (input, forget, candidate,
    output) the input weights, the recurrent weights and the bias. -/
structure Params where
  x : SBD.Idx → EReal
  h : SBD.Idx → EReal
  c : SBD.Idx → EReal
  Wi : SDD.Idx → EReal
  Ui : SDD.Idx → EReal
  bi : SD.Idx → EReal
  Wf : SDD.Idx → EReal
  Uf : SDD.Idx → EReal
  bf : SD.Idx → EReal
  Wg : SDD.Idx → EReal
  Ug : SDD.Idx → EReal
  bg : SD.Idx → EReal
  Wo : SDD.Idx → EReal
  Uo : SDD.Idx → EReal
  bo : SD.Idx → EReal

/-- A gate's pre-activation at batch row `p` and hidden column `n`, from whole arrays. -/
def gate (x h : SBD.Idx → EReal) (W U : SDD.Idx → EReal) (b : SD.Idx → EReal) (p : Fin 1024) (n : Fin 4096) : EReal :=
  preact (fun k => x (ix2 p k)) (fun k => h (ix2 p k)) (fun k => W (ix2 k n)) (fun k => U (ix2 k n)) (b (ix1 n))

/-- The new cell state at `(p, n)`. -/
def cellAt (A : Params) (p : Fin 1024) (n : Fin 4096) : EReal :=
  newCell (gate A.x A.h A.Wi A.Ui A.bi p n) (gate A.x A.h A.Wf A.Uf A.bf p n) (gate A.x A.h A.Wg A.Ug A.bg p n)
    (A.c (ix2 p n))

/-- The new hidden state at `(p, n)`. -/
def hiddenAt (A : Params) (p : Fin 1024) (n : Fin 4096) : EReal :=
  newHidden (gate A.x A.h A.Wo A.Uo A.bo p n) (cellAt A p n)

/-- The new cell state as an array. -/
def cellArr (A : Params) : SBD.Idx → EReal := fun i => cellAt A (i 0) (i 1)

/-- The new hidden state as an array. -/
def hiddenArr (A : Params) : SBD.Idx → EReal := fun i => hiddenAt A (i 0) (i 1)

theorem cellArr_ix2 (A : Params) (p : Fin 1024) (n : Fin 4096) : cellArr A (ix2 p n) = cellAt A p n := rfl

theorem hiddenArr_ix2 (A : Params) (p : Fin 1024) (n : Fin 4096) : hiddenArr A (ix2 p n) = hiddenAt A p n := rfl

/-- The float pattern of `1.0` denotes the extended real `1`. -/
theorem ofBits_one_f32 : Ideal.ofBits .f32 0x3F800000#32 = 1 := by
  simp [Ideal.ofBits, Ideal.ieee, -EReal.coe_mul]; norm_num

/-- The logistic function is the quotient `1 / (1 + e^(-z))` it abbreviates, at every extended real. -/
theorem logistic_eq_div (z : EReal) : Ideal.div 1 (1 + Ideal.exp (-z)) = Ideal.logistic z := rfl

end Cert.LstmCell

end
-- ==== Proof.LibConcatFour.lean ====
/-
  Four pieces of one shape laid side by side, read at an index.

  Four `[n, a]` matrices joined along their columns make an `[n, c]` matrix whose column `g·a + q` (with `q < a`) is
  column `q` of piece `g`; four `[a]` vectors joined end to end make a `[c]` vector whose entry `g·a + q` is entry `q` of
  piece `g`. (Here `c` is whatever extent the concatenation was formed with: four times `a`.)
-/
import Idealize.ShloMosaic.Lib.Pipeline.Value
import Idealize.ShloMosaic.Lib.ValueIdx

noncomputable section

namespace Idealize.ShloMosaic.ConcatFour

open Idealize.ShloMosaic Idealize.ShloMosaic.ValueIdx

variable {α : Type}

/-- Four `[n, a]` matrices joined along the columns, read at row `r` and column `j = g·a + q`: piece `g` at `(r, q)`. -/
theorem cols_apply {n a c : ℕ} (x0 x1 x2 x3 : (⟨2, ![n, a]⟩ : Shape).Idx → α)
    (h : Shape.Concatenates (([⟨⟨2, ![n, a]⟩, x0⟩, ⟨⟨2, ![n, a]⟩, x1⟩, ⟨⟨2, ![n, a]⟩, x2⟩, ⟨⟨2, ![n, a]⟩, x3⟩] :
      List ((s : Shape) × (s.Idx → α))).map (·.1)) ⟨2, ![n, c]⟩ 1)
    (r : Fin n) (g : Fin 4) (q : Fin a) (j : Fin c) (hj : j.val = g.val * a + q.val) :
    concatenate ⟨2, ![n, c]⟩ 1 [⟨⟨2, ![n, a]⟩, x0⟩, ⟨⟨2, ![n, a]⟩, x1⟩, ⟨⟨2, ![n, a]⟩, x2⟩, ⟨⟨2, ![n, a]⟩, x3⟩] h (ix2 r j)
      = (![x0, x1, x2, x3] g) (ix2 r q) := by
  have hoff : ∀ b : Fin (⟨2, ![n, a]⟩ : Shape).rank, b.cast rfl ≠ (1 : Fin 2) →
      ((ix2 r q : (⟨2, ![n, a]⟩ : Shape).Idx) b).val = ((ix2 r j : (⟨2, ![n, c]⟩ : Shape).Idx) (b.cast rfl)).val := by
    intro b hb
    match b with
    | ⟨0, _⟩ => rfl
    | ⟨1, _⟩ => exact absurd rfl hb
  match g with
  | ⟨0, _⟩ =>
    exact concatenate_apply_piece 1 _ h (ix2 r j) 0 (by show 0 < 4; omega) ⟨2, ![n, a]⟩ x0 rfl rfl 0 rfl (ix2 r q) hoff
      (by show 0 + q.val = j.val; rw [hj]; simp)
  | ⟨1, _⟩ =>
    exact concatenate_apply_piece 1 _ h (ix2 r j) 1 (by show 1 < 4; omega) ⟨2, ![n, a]⟩ x1 rfl rfl (a + 0) rfl (ix2 r q) hoff
      (by show a + 0 + q.val = j.val; rw [hj]; simp)
  | ⟨2, _⟩ =>
    exact concatenate_apply_piece 1 _ h (ix2 r j) 2 (by show 2 < 4; omega) ⟨2, ![n, a]⟩ x2 rfl rfl (a + (a + 0)) rfl (ix2 r q) hoff
      (by show a + (a + 0) + q.val = j.val; rw [hj]; simp; omega)
  | ⟨3, _⟩ =>
    exact concatenate_apply_piece 1 _ h (ix2 r j) 3 (by show 3 < 4; omega) ⟨2, ![n, a]⟩ x3 rfl rfl (a + (a + (a + 0))) rfl (ix2 r q) hoff
      (by show a + (a + (a + 0)) + q.val = j.val; rw [hj]; simp; omega)

/-- Four `[a]` vectors joined end to end, read at `j = g·a + q`: piece `g` at `q`. -/
theorem vec_apply {a c : ℕ} (x0 x1 x2 x3 : (⟨1, ![a]⟩ : Shape).Idx → α)
    (h : Shape.Concatenates (([⟨⟨1, ![a]⟩, x0⟩, ⟨⟨1, ![a]⟩, x1⟩, ⟨⟨1, ![a]⟩, x2⟩, ⟨⟨1, ![a]⟩, x3⟩] :
      List ((s : Shape) × (s.Idx → α))).map (·.1)) ⟨1, ![c]⟩ 0)
    (g : Fin 4) (q : Fin a) (j : Fin c) (hj : j.val = g.val * a + q.val) :
    concatenate ⟨1, ![c]⟩ 0 [⟨⟨1, ![a]⟩, x0⟩, ⟨⟨1, ![a]⟩, x1⟩, ⟨⟨1, ![a]⟩, x2⟩, ⟨⟨1, ![a]⟩, x3⟩] h (ix1 j)
      = (![x0, x1, x2, x3] g) (ix1 q) := by
  have hoff : ∀ b : Fin (⟨1, ![a]⟩ : Shape).rank, b.cast rfl ≠ (0 : Fin 1) →
      ((ix1 q : (⟨1, ![a]⟩ : Shape).Idx) b).val = ((ix1 j : (⟨1, ![c]⟩ : Shape).Idx) (b.cast rfl)).val := by
    intro b hb
    match b with
    | ⟨0, _⟩ => exact absurd rfl hb
  match g with
  | ⟨0, _⟩ =>
    exact concatenate_apply_piece 0 _ h (ix1 j) 0 (by show 0 < 4; omega) ⟨1, ![a]⟩ x0 rfl rfl 0 rfl (ix1 q) hoff
      (by show 0 + q.val = j.val; rw [hj]; simp)
  | ⟨1, _⟩ =>
    exact concatenate_apply_piece 0 _ h (ix1 j) 1 (by show 1 < 4; omega) ⟨1, ![a]⟩ x1 rfl rfl (a + 0) rfl (ix1 q) hoff
      (by show a + 0 + q.val = j.val; rw [hj]; simp)
  | ⟨2, _⟩ =>
    exact concatenate_apply_piece 0 _ h (ix1 j) 2 (by show 2 < 4; omega) ⟨1, ![a]⟩ x2 rfl rfl (a + (a + 0)) rfl (ix1 q) hoff
      (by show a + (a + 0) + q.val = j.val; rw [hj]; simp; omega)
  | ⟨3, _⟩ =>
    exact concatenate_apply_piece 0 _ h (ix1 j) 3 (by show 3 < 4; omega) ⟨1, ![a]⟩ x3 rfl rfl (a + (a + (a + 0))) rfl (ix1 q) hoff
      (by show a + (a + (a + 0)) + q.val = j.val; rw [hj]; simp; omega)

end Idealize.ShloMosaic.ConcatFour

end
-- ==== Proof.RefRead.lean ====
/-
  The reference computes the LSTM step through ONE wide product: the four gates' input weights are laid side by side
  into a `[4096, 16384]` matrix (likewise the recurrent weights, and the biases into a `[16384]` vector), the wide
  pre-activation `x·W + h·U + b` is formed once, and the four `[1024, 4096]` bands of columns are cut out of it.

  Column `g·4096 + n` of the wide matrix is column `n` of gate `g`'s matrix, so the wide pre-activation at
  `(p, g·4096 + n)` is gate `g`'s pre-activation at `(p, n)`: the same two inner products over the same index `k`,
  added in the same order, plus the same bias entry. Band `g` of the wide array is therefore gate `g`'s pre-activation
  array. The sigmoid is spelt `1 / (1 + e^(-z))`, which is the logistic function by its definition (the literal `1.0`
  denotes `1`), and the rest of the step is the same products and sum as in the specification.
-/
import proofs.«157825_j71176198029872_2_alg».proof.Proof.Gen.ReferenceIdeal.Read
import proofs.«157825_j71176198029872_2_alg».proof.Proof.Cell
import proofs.«157825_j71176198029872_2_alg».proof.Proof.LibConcatFour

noncomputable section

namespace Cert.LstmCell.Ref

open Cert.ReferenceIdeal Cert.ReferenceIdeal.Read Idealize.ShloMosaic Idealize.ShloMosaic.ValueIdx
open scoped BigOperators

/-- Column `n` of band `g` of a `16384`-wide array. -/
def col (g : Fin 4) (n : Fin 4096) : Fin 16384 := ⟨g.val * 4096 + n.val, by have := g.isLt; have := n.isLt; omega⟩

theorem col_val (g : Fin 4) (n : Fin 4096) : (col g n).val = g.val * 4096 + n.val := rfl

/-! ## The index maps of the generated read lemmas, at `(p, j)` -/

theorem lidx3 (p : Fin 1024) (j : Fin 16384) (k : Fin 4096) : lidx_main_v3 (ix2 p j) k = ix2 p k :=
  funext fun a => Fin.ext (by match a with | ⟨0, _⟩ => rfl | ⟨1, _⟩ => rfl)
theorem ridx3 (p : Fin 1024) (j : Fin 16384) (k : Fin 4096) : ridx_main_v3 (ix2 p j) k = ix2 k j :=
  funext fun a => Fin.ext (by match a with | ⟨0, _⟩ => rfl | ⟨1, _⟩ => rfl)
theorem lidx4 (p : Fin 1024) (j : Fin 16384) (k : Fin 4096) : lidx_main_v4 (ix2 p j) k = ix2 p k :=
  funext fun a => Fin.ext (by match a with | ⟨0, _⟩ => rfl | ⟨1, _⟩ => rfl)
theorem ridx4 (p : Fin 1024) (j : Fin 16384) (k : Fin 4096) : ridx_main_v4 (ix2 p j) k = ix2 k j :=
  funext fun a => Fin.ext (by match a with | ⟨0, _⟩ => rfl | ⟨1, _⟩ => rfl)
theorem idx67 (p : Fin 1024) (j : Fin 16384) : idx_main_v6 (idx_main_v7 (ix2 p j)) = ix1 j :=
  funext fun a => Fin.ext (by match a with | ⟨0, _⟩ => rfl)

theorem idx9 (p : Fin 1024) (n : Fin 4096) : idx_main_v9 (ix2 p n) = ix2 p (col 0 n) :=
  funext fun a => Fin.ext (by
    match a with
    | ⟨0, _⟩ => rfl
    | ⟨1, _⟩ => show n.val = 0 * 4096 + n.val; omega)
theorem idx10 (p : Fin 1024) (n : Fin 4096) : idx_main_v10 (ix2 p n) = ix2 p (col 1 n) :=
  funext fun a => Fin.ext (by
    match a with
    | ⟨0, _⟩ => rfl
    | ⟨1, _⟩ => show 4096 + n.val = 1 * 4096 + n.val; omega)
theorem idx11 (p : Fin 1024) (n : Fin 4096) : idx_main_v11 (ix2 p n) = ix2 p (col 2 n) :=
  funext fun a => Fin.ext (by
    match a with
    | ⟨0, _⟩ => rfl
    | ⟨1, _⟩ => show 8192 + n.val = 2 * 4096 + n.val; omega)
theorem idx12 (p : Fin 1024) (n : Fin 4096) : idx_main_v12 (ix2 p n) = ix2 p (col 3 n) :=
  funext fun a => Fin.ext (by
    match a with
    | ⟨0, _⟩ => rfl
    | ⟨1, _⟩ => show 12288 + n.val = 3 * 4096 + n.val; omega)

variable (x0 x1 x2 : (⟨S1024x4096, .f32⟩ : BufTy).Contents (Elt Ideal))
  (x3 x4 : (⟨S4096x4096, .f32⟩ : BufTy).Contents (Elt Ideal)) (x5 : (⟨S4096, .f32⟩ : BufTy).Contents (Elt Ideal))
  (x6 x7 : (⟨S4096x4096, .f32⟩ : BufTy).Contents (Elt Ideal)) (x8 : (⟨S4096, .f32⟩ : BufTy).Contents (Elt Ideal))
  (x9 x10 : (⟨S4096x4096, .f32⟩ : BufTy).Contents (Elt Ideal)) (x11 : (⟨S4096, .f32⟩ : BufTy).Contents (Elt Ideal))
  (x12 x13 : (⟨S4096x4096, .f32⟩ : BufTy).Contents (Elt Ideal)) (x14 : (⟨S4096, .f32⟩ : BufTy).Contents (Elt Ideal))

/-! ## The wide pre-activation, band by band -/

/-- The wide pre-activation at `(p, g·4096 + n)` is gate `g`'s pre-activation at `(p, n)`: column `g·4096 + n` of the
    joined weights is column `n` of gate `g`'s weights, entry `g·4096 + n` of the joined biases is entry `n` of gate
    `g`'s bias, and the sums run over the same `k`. -/
theorem wide_preact (g : Fin 4) (p : Fin 1024) (n : Fin 4096) :
    val_main_v8 (F := Ideal) x0 x1 x3 x4 x5 x6 x7 x8 x9 x10 x11 x12 x13 x14 (ix2 p (col g n))
      = gate x0 x1 (![x3, x6, x9, x12] g) (![x4, x7, x10, x13] g) (![x5, x8, x11, x14] g) p n := by
  rw [val_main_v8_apply, val_main_v5_apply, val_main_v3_apply, val_main_v4_apply, val_main_v7_apply, val_main_v6_apply]
  simp only [lidx3, ridx3, lidx4, ridx4, idx67]
  have hW : ∀ k : Fin 4096, val_main_v0 (F := Ideal) x3 x6 x9 x12 (ix2 k (col g n)) = (![x3, x6, x9, x12] g) (ix2 k n) :=
    fun k => ConcatFour.cols_apply x3 x6 x9 x12 _ k g n (col g n) (col_val g n)
  have hU : ∀ k : Fin 4096, val_main_v1 (F := Ideal) x4 x7 x10 x13 (ix2 k (col g n)) = (![x4, x7, x10, x13] g) (ix2 k n) :=
    fun k => ConcatFour.cols_apply x4 x7 x10 x13 _ k g n (col g n) (col_val g n)
  have hb : val_main_v2 (F := Ideal) x5 x8 x11 x14 (ix1 (col g n)) = (![x5, x8, x11, x14] g) (ix1 n) :=
    ConcatFour.vec_apply x5 x8 x11 x14 _ g n (col g n) (col_val g n)
  simp only [hW, hU, hb]
  rfl

/-- Band 0 is the input gate's pre-activation. -/
theorem band_i (p : Fin 1024) (n : Fin 4096) : val_main_v9 (F := Ideal) x0 x1 x3 x4 x5 x6 x7 x8 x9 x10 x11 x12 x13 x14 (ix2 p n) = gate x0 x1 x3 x4 x5 p n := by
  rw [val_main_v9_apply, idx9]; exact wide_preact x0 x1 x3 x4 x5 x6 x7 x8 x9 x10 x11 x12 x13 x14 0 p n
/-- Band 1 is the forget gate's. -/
theorem band_f (p : Fin 1024) (n : Fin 4096) : val_main_v10 (F := Ideal) x0 x1 x3 x4 x5 x6 x7 x8 x9 x10 x11 x12 x13 x14 (ix2 p n) = gate x0 x1 x6 x7 x8 p n := by
  rw [val_main_v10_apply, idx10]; exact wide_preact x0 x1 x3 x4 x5 x6 x7 x8 x9 x10 x11 x12 x13 x14 1 p n
/-- Band 2 is the candidate's. -/
theorem band_g (p : Fin 1024) (n : Fin 4096) : val_main_v11 (F := Ideal) x0 x1 x3 x4 x5 x6 x7 x8 x9 x10 x11 x12 x13 x14 (ix2 p n) = gate x0 x1 x9 x10 x11 p n := by
  rw [val_main_v11_apply, idx11]; exact wide_preact x0 x1 x3 x4 x5 x6 x7 x8 x9 x10 x11 x12 x13 x14 2 p n
/-- Band 3 is the output gate's. -/
theorem band_o (p : Fin 1024) (n : Fin 4096) : val_main_v12 (F := Ideal) x0 x1 x3 x4 x5 x6 x7 x8 x9 x10 x11 x12 x13 x14 (ix2 p n) = gate x0 x1 x12 x13 x14 p n := by
  rw [val_main_v12_apply, idx12]; exact wide_preact x0 x1 x3 x4 x5 x6 x7 x8 x9 x10 x11 x12 x13 x14 3 p n

/-! ## The gates: `1 / (1 + e^(-z))` is the logistic function -/

theorem sig_i (p : Fin 1024) (n : Fin 4096) :
    val_main_v18 (F := Ideal) x0 x1 x3 x4 x5 x6 x7 x8 x9 x10 x11 x12 x13 x14 (ix2 p n) = Ideal.logistic (gate x0 x1 x3 x4 x5 p n) := by
  rw [val_main_v18_apply, val_main_v17_apply, val_main_cst_0_apply, val_main_v16_apply, val_main_v15_apply,
    val_main_cst_apply, val_main_v14_apply, val_main_v13_apply, band_i]
  simp only [Ideal.ofBits_def, ofBits_one_f32, Ideal.hostDivf_def, Ideal.addf_def, Ideal.hostUnary_exp_def, Ideal.hostNegf_def,
    Ideal.negf_def]
  rfl

theorem sig_f (p : Fin 1024) (n : Fin 4096) :
    val_main_v24 (F := Ideal) x0 x1 x3 x4 x5 x6 x7 x8 x9 x10 x11 x12 x13 x14 (ix2 p n) = Ideal.logistic (gate x0 x1 x6 x7 x8 p n) := by
  rw [val_main_v24_apply, val_main_v23_apply, val_main_cst_2_apply, val_main_v22_apply, val_main_v21_apply,
    val_main_cst_1_apply, val_main_v20_apply, val_main_v19_apply, band_f]
  simp only [Ideal.ofBits_def, ofBits_one_f32, Ideal.hostDivf_def, Ideal.addf_def, Ideal.hostUnary_exp_def, Ideal.hostNegf_def,
    Ideal.negf_def]
  rfl

theorem sig_o (p : Fin 1024) (n : Fin 4096) :
    val_main_v31 (F := Ideal) x0 x1 x3 x4 x5 x6 x7 x8 x9 x10 x11 x12 x13 x14 (ix2 p n) = Ideal.logistic (gate x0 x1 x12 x13 x14 p n) := by
  rw [val_main_v31_apply, val_main_v30_apply, val_main_cst_4_apply, val_main_v29_apply, val_main_v28_apply,
    val_main_cst_3_apply, val_main_v27_apply, val_main_v26_apply, band_o]
  simp only [Ideal.ofBits_def, ofBits_one_f32, Ideal.hostDivf_def, Ideal.addf_def, Ideal.hostUnary_exp_def, Ideal.hostNegf_def,
    Ideal.negf_def]
  rfl

theorem tanh_g (p : Fin 1024) (n : Fin 4096) :
    val_main_v25 (F := Ideal) x0 x1 x3 x4 x5 x6 x7 x8 x9 x10 x11 x12 x13 x14 (ix2 p n) = Ideal.tanh (gate x0 x1 x9 x10 x11 p n) := by
  rw [val_main_v25_apply, band_g]; rfl

/-! ## The two results -/

/-- The reference's second result is the new cell state of the specification. -/
theorem cell_at (p : Fin 1024) (n : Fin 4096) :
    val_main_v34 (F := Ideal) x0 x1 x2 x3 x4 x5 x6 x7 x8 x9 x10 x11 x12 x13 x14 (ix2 p n)
      = cellAt ⟨x0, x1, x2, x3, x4, x5, x6, x7, x8, x9, x10, x11, x12, x13, x14⟩ p n := by
  rw [val_main_v34_apply, val_main_v32_apply, val_main_v33_apply, sig_f, sig_i, tanh_g]
  rfl

/-- The reference's first result is the new hidden state. -/
theorem hidden_at (p : Fin 1024) (n : Fin 4096) :
    val_main_v36 (F := Ideal) x0 x1 x2 x3 x4 x5 x6 x7 x8 x9 x10 x11 x12 x13 x14 (ix2 p n)
      = hiddenAt ⟨x0, x1, x2, x3, x4, x5, x6, x7, x8, x9, x10, x11, x12, x13, x14⟩ p n := by
  rw [val_main_v36_apply, val_main_v35_apply, sig_o, cell_at]
  rfl

theorem cell_eq : val_main_v34 (F := Ideal) x0 x1 x2 x3 x4 x5 x6 x7 x8 x9 x10 x11 x12 x13 x14
    = cellArr ⟨x0, x1, x2, x3, x4, x5, x6, x7, x8, x9, x10, x11, x12, x13, x14⟩ := by
  funext i
  rw [eq_ix2 i]
  exact cell_at x0 x1 x2 x3 x4 x5 x6 x7 x8 x9 x10 x11 x12 x13 x14 (i 0) (i 1)

theorem hidden_eq : val_main_v36 (F := Ideal) x0 x1 x2 x3 x4 x5 x6 x7 x8 x9 x10 x11 x12 x13 x14
    = hiddenArr ⟨x0, x1, x2, x3, x4, x5, x6, x7, x8, x9, x10, x11, x12, x13, x14⟩ := by
  funext i
  rw [eq_ix2 i]
  exact hidden_at x0 x1 x2 x3 x4 x5 x6 x7 x8 x9 x10 x11 x12 x13 x14 (i 0) (i 1)

end Cert.LstmCell.Ref

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.KernelPoint.lean ====
/-
  One grid point of the kernel: the band of 256 hidden columns it is handed.

  The body receives the whole input `x` and previous hidden state `h` (`[1024, 4096]`), and of every weight matrix, of
  every bias (as a `[1, 4096]` row) and of the previous cell state the band of 256 columns that belongs to the point. It
  forms, per gate, `x·W_band + h·U_band + b_band` (the bias row repeated down the 1024 rows), applies the logistic
  function or `tanh`, and combines them. At row `p` and band column `q` a matrix product into the zero accumulator is the
  inner product of row `p` of the left factor with column `q` of the right one, the repeated bias row is its entry `q`,
  and everything else acts entry by entry: so the two stored blocks hold, at `(p, q)`, the specification's new cell state
  and new hidden state computed from row `p` of `x` and `h`, column `q` of the band's weights, entry `q` of the band's
  biases and entry `(p, q)` of the band's previous cell state.
-/
import proofs.«157825_j71176198029872_2_alg».proof.Proof.Gen.KernelIdeal.Frame
import proofs.«157825_j71176198029872_2_alg».proof.Proof.Cell
import proofs.«157825_j71176198029872_2_alg».proof.Proof.LibInnerProducts
import Idealize.ShloMosaic.Lib.ValueLayout
import Idealize.ShloMosaic.Lib.Pipeline.Value

noncomputable section

namespace Cert.LstmCell.Point

open Cert.KernelIdeal Cert.KernelIdeal.Gen Idealize.ShloMosaic Idealize.ShloMosaic.ValueIdx
open scoped BigOperators

theorem hz : (![0, 0] : Fin 2 → Nat) = fun _ => 0 := funext fun a => by fin_cases a <;> rfl

/-- The body's matrix products contract the left factor's columns with the right factor's rows, no batch axis. -/
theorem dot_plain : dot_S1024x4096_S4096x256_S1024x256_1_0_0_1_n_n = DotDims.plain 1024 4096 256 := rfl

/-! ## A gate over a band, at one entry -/

/-- A gate's pre-activation at row `p` and band column `q`, from `x`, `h` and the band's weights and bias row. -/
def bandGate (x0 x1 : S1024x4096.Idx → EReal) (w u : S4096x256.Idx → EReal) (b : S1x256.Idx → EReal)
    (p : Fin 1024) (q : Fin 256) : EReal :=
  preact (fun k => x0 (ix2 p k)) (fun k => x1 (ix2 p k)) (fun k => w (ix2 k q)) (fun k => u (ix2 k q)) (b (ix2 (0 : Fin 1) q))

/-- The new cell state at `(p, q)` of the band. -/
def bandCell (x0 x1 : S1024x4096.Idx → EReal) (x2 : S1024x256.Idx → EReal) (wi ui : S4096x256.Idx → EReal) (bi : S1x256.Idx → EReal)
    (wf uf : S4096x256.Idx → EReal) (bf : S1x256.Idx → EReal) (wg ug : S4096x256.Idx → EReal) (bg : S1x256.Idx → EReal)
    (p : Fin 1024) (q : Fin 256) : EReal :=
  newCell (bandGate x0 x1 wi ui bi p q) (bandGate x0 x1 wf uf bf p q) (bandGate x0 x1 wg ug bg p q) (x2 (ix2 p q))

/-- The new hidden state at `(p, q)` of the band. -/
def bandHidden (x0 x1 : S1024x4096.Idx → EReal) (x2 : S1024x256.Idx → EReal) (wi ui : S4096x256.Idx → EReal) (bi : S1x256.Idx → EReal)
    (wf uf : S4096x256.Idx → EReal) (bf : S1x256.Idx → EReal) (wg ug : S4096x256.Idx → EReal) (bg : S1x256.Idx → EReal)
    (wo uo : S4096x256.Idx → EReal) (bo : S1x256.Idx → EReal) (p : Fin 1024) (q : Fin 256) : EReal :=
  newHidden (bandGate x0 x1 wo uo bo p q) (bandCell x0 x1 x2 wi ui bi wf uf bf wg ug bg p q)

/-- Two products added, then the bias row repeated down the rows, at `(p, q)`. -/
theorem gate_apply (xv hv : FVec Ideal S1024x4096 .bf16) (wv uv : FVec Ideal S4096x256 .bf16) (bv : FVec Ideal S1x256 .f32)
    (p : Fin 1024) (q : Fin 256) :
    addf (addf (matmul dot_S1024x4096_S4096x256_S1024x256_1_0_0_1_n_n none xv wv (constant (F := Ideal) S1024x256 .f32 0x00000000#32)) (matmul dot_S1024x4096_S4096x256_S1024x256_1_0_0_1_n_n none hv uv (constant (F := Ideal) S1024x256 .f32 0x00000000#32)))
        (broadcastTo S1024x256 bv broadcasts_S1x256_S1024x256) (ix2 p q)
      = bandGate xv hv wv uv bv p q := by
  show (matmul dot_S1024x4096_S4096x256_S1024x256_1_0_0_1_n_n none xv wv (constant (F := Ideal) S1024x256 .f32 0x00000000#32) (ix2 p q) + matmul dot_S1024x4096_S4096x256_S1024x256_1_0_0_1_n_n none hv uv (constant (F := Ideal) S1024x256 .f32 0x00000000#32) (ix2 p q))
      + broadcastTo S1024x256 bv broadcasts_S1x256_S1024x256 (ix2 p q) = _
  rw [InnerProducts.matmul_zero_apply _ dot_plain, InnerProducts.matmul_zero_apply _ dot_plain, broadcastTo_1b_ab_apply]
  rfl

/-- Two products added, at `(p, q)`. -/
theorem pair_apply (xv hv : FVec Ideal S1024x4096 .bf16) (wv uv : FVec Ideal S4096x256 .bf16) (p : Fin 1024) (q : Fin 256) :
    addf (matmul dot_S1024x4096_S4096x256_S1024x256_1_0_0_1_n_n none xv wv (constant (F := Ideal) S1024x256 .f32 0x00000000#32)) (matmul dot_S1024x4096_S4096x256_S1024x256_1_0_0_1_n_n none hv uv (constant (F := Ideal) S1024x256 .f32 0x00000000#32)) (ix2 p q)
      = ∑ k : Fin 4096, xv (ix2 p k) * wv (ix2 k q) + ∑ k : Fin 4096, hv (ix2 p k) * uv (ix2 k q) := by
  show matmul dot_S1024x4096_S4096x256_S1024x256_1_0_0_1_n_n none xv wv (constant (F := Ideal) S1024x256 .f32 0x00000000#32) (ix2 p q) + matmul dot_S1024x4096_S4096x256_S1024x256_1_0_0_1_n_n none hv uv (constant (F := Ideal) S1024x256 .f32 0x00000000#32) (ix2 p q) = _
  rw [InnerProducts.matmul_zero_apply _ dot_plain, InnerProducts.matmul_zero_apply _ dot_plain]

/-! ## The body's terms -/

theorem pay3_eq (v : Vec Ideal S1024x4096 .bf16) : k0_pay3 v = v := shapeCast_self v _
theorem pay4_eq (v : Vec Ideal S1024x4096 .bf16) : k0_pay4 v = v := shapeCast_self v _
theorem pay5_eq (v : Vec Ideal S4096x256 .bf16) : k0_pay5 v = v := shapeCast_self v _
theorem pay6_eq (v : Vec Ideal S4096x256 .bf16) : k0_pay6 v = v := shapeCast_self v _
theorem pay7_eq (v : Vec Ideal S4096x256 .bf16) : k0_pay7 v = v := shapeCast_self v _
theorem pay8_eq (v : Vec Ideal S4096x256 .bf16) : k0_pay8 v = v := shapeCast_self v _

/-- The input gate's pre-activation. -/
theorem pay9_apply (v0 v2 : Vec Ideal S1024x4096 .bf16) (v5 v13 : Vec Ideal S4096x256 .bf16) (v24 : Vec Ideal S1x256 .f32)
    (p : Fin 1024) (q : Fin 256) : k0_pay9 v0 v2 v5 v13 v24 (ix2 p q) = bandGate v0 v2 v5 v13 v24 p q := by
  unfold k0_pay9
  simp only [pay3_eq, pay4_eq, shapeCast_self]
  exact gate_apply v0 v2 v5 v13 v24 p q

/-- The forget gate's two products, before its bias. -/
theorem pay10_apply (v0 v2 : Vec Ideal S1024x4096 .bf16) (v7 v15 : Vec Ideal S4096x256 .bf16) (p : Fin 1024) (q : Fin 256) :
    k0_pay10 v0 v2 v7 v15 (ix2 p q)
      = ∑ k : Fin 4096, v0 (ix2 p k) * v7 (ix2 k q) + ∑ k : Fin 4096, v2 (ix2 p k) * v15 (ix2 k q) := by
  unfold k0_pay10
  simp only [pay3_eq, pay4_eq, shapeCast_self]
  exact pair_apply v0 v2 v7 v15 p q

/-- The new cell state, from the input gate's pre-activation `v27`, the forget gate's two products `v30` and its bias
    row, the candidate's factors and bias row, and the previous cell state's band. -/
theorem pay1_apply (v1 v3 : FVec Ideal S1024x4096 .bf16) (v4 : Vec Ideal S1024x256 .f32) (v10 v18 : FVec Ideal S4096x256 .bf16)
    (v27 v30 : FVec Ideal S1024x256 .f32) (v31 v38 : Vec Ideal S1x256 .f32) (p : Fin 1024) (q : Fin 256) :
    k0_pay1 v1 v3 v4 v10 v18 v27 v30 v31 v38 (ix2 p q)
      = newCell (v27 (ix2 p q)) (v30 (ix2 p q) + v31 (ix2 (0 : Fin 1) q)) (bandGate v1 v3 v10 v18 v38 p q) (v4 (ix2 p q)) := by
  unfold k0_pay1
  simp only [shapeCast_self]
  show Ideal.logistic (v30 (ix2 p q) + broadcastTo S1024x256 v31 broadcasts_S1x256_S1024x256 (ix2 p q)) * v4 (ix2 p q)
      + Ideal.logistic (v27 (ix2 p q)) * Ideal.tanh (addf (addf (matmul dot_S1024x4096_S4096x256_S1024x256_1_0_0_1_n_n none v1 v10 (constant (F := Ideal) S1024x256 .f32 0x00000000#32)) (matmul dot_S1024x4096_S4096x256_S1024x256_1_0_0_1_n_n none v3 v18 (constant (F := Ideal) S1024x256 .f32 0x00000000#32)))
          (broadcastTo S1024x256 v38 broadcasts_S1x256_S1024x256) (ix2 p q)) = _
  rw [gate_apply, broadcastTo_1b_ab_apply]
  rfl

/-- The new hidden state, from the same and the output gate's factors and bias row. -/
theorem pay2_apply (v1 v3 : FVec Ideal S1024x4096 .bf16) (v4 : Vec Ideal S1024x256 .f32)
    (v10 v12 v18 v20 : FVec Ideal S4096x256 .bf16) (v27 v30 : FVec Ideal S1024x256 .f32) (v31 v38 v45 : Vec Ideal S1x256 .f32)
    (p : Fin 1024) (q : Fin 256) :
    k0_pay2 v1 v3 v4 v10 v12 v18 v20 v27 v30 v31 v38 v45 (ix2 p q)
      = newHidden (bandGate v1 v3 v12 v20 v45 p q)
          (newCell (v27 (ix2 p q)) (v30 (ix2 p q) + v31 (ix2 (0 : Fin 1) q)) (bandGate v1 v3 v10 v18 v38 p q) (v4 (ix2 p q))) := by
  unfold k0_pay2
  simp only [shapeCast_self]
  show Ideal.logistic (addf (addf (matmul dot_S1024x4096_S4096x256_S1024x256_1_0_0_1_n_n none v1 v12 (constant (F := Ideal) S1024x256 .f32 0x00000000#32)) (matmul dot_S1024x4096_S4096x256_S1024x256_1_0_0_1_n_n none v3 v20 (constant (F := Ideal) S1024x256 .f32 0x00000000#32)))
          (broadcastTo S1024x256 v45 broadcasts_S1x256_S1024x256) (ix2 p q))
      * Ideal.tanh (k0_pay1 v1 v3 v4 v10 v18 v27 v30 v31 v38 (ix2 p q)) = _
  rw [gate_apply, pay1_apply]
  rfl

/-! ## What the body leaves in the two output blocks -/

variable (x0 x1 : Vec Ideal S1024x4096 .bf16) (x2 : Vec Ideal S1024x256 .f32)
  (x3 x4 x5 x6 x7 x8 x9 x10 : Vec Ideal S4096x256 .bf16) (x11 x12 x13 x14 : Vec Ideal S1x256 .f32)

/-- The block stored to the cell-state output holds the new cell state of the band. (The windows come in the order
    `x, h, c`, then the four input weights, the four recurrent weights, the four biases, each as `i, f, g, o`.) -/
theorem out16_apply (p : Fin 1024) (q : Fin 256) :
    out0_16 x0 x1 x2 x3 x4 x5 x6 x7 x8 x9 x10 x11 x12 x13 x14 (ix2 p q)
      = bandCell x0 x1 x2 x3 x7 x11 x4 x8 x12 x5 x9 x13 p q := by
  unfold out0_16
  rw [View.canon_unit_zero hz]
  simp only [View.ld_unit_zero (S := S1024x4096) hz, View.ld_unit_zero (S := S1024x256) hz,
    View.ld_unit_zero (S := S4096x256) hz, View.ld_unit_zero (S := S1x256) hz, pay3_eq, pay4_eq, pay5_eq, pay7_eq]
  rw [pay1_apply, pay9_apply, pay10_apply]
  rfl

/-- The block stored to the hidden-state output holds the new hidden state of the band. -/
theorem out15_apply (p : Fin 1024) (q : Fin 256) :
    out0_15 x0 x1 x2 x3 x4 x5 x6 x7 x8 x9 x10 x11 x12 x13 x14 (ix2 p q)
      = bandHidden x0 x1 x2 x3 x7 x11 x4 x8 x12 x5 x9 x13 x6 x10 x14 p q := by
  unfold out0_15
  rw [View.canon_unit_zero hz]
  simp only [View.ld_unit_zero (S := S1024x4096) hz, View.ld_unit_zero (S := S1024x256) hz,
    View.ld_unit_zero (S := S4096x256) hz, View.ld_unit_zero (S := S1x256) hz, pay3_eq, pay4_eq, pay5_eq, pay6_eq, pay7_eq, pay8_eq]
  rw [pay2_apply, pay9_apply, pay10_apply]
  rfl

/-! ## From the band to the whole arrays -/

/-- A gate over a band is the gate over the whole arrays at the band's column `n`, when the band's columns are the whole
    arrays' columns there. -/
theorem bandGate_eq_gate (X H : SBD.Idx → EReal) (W U : SDD.Idx → EReal) (B : SD.Idx → EReal)
    (x0 x1 : S1024x4096.Idx → EReal) (w u : S4096x256.Idx → EReal) (b : S1x256.Idx → EReal)
    (p : Fin 1024) (q : Fin 256) (n : Fin 4096)
    (h0 : ∀ k : Fin 4096, x0 (ix2 p k) = X (ix2 p k)) (h1 : ∀ k : Fin 4096, x1 (ix2 p k) = H (ix2 p k))
    (hw : ∀ k : Fin 4096, w (ix2 k q) = W (ix2 k n)) (hu : ∀ k : Fin 4096, u (ix2 k q) = U (ix2 k n))
    (hb : b (ix2 (0 : Fin 1) q) = B (ix1 n)) :
    bandGate x0 x1 w u b p q = gate X H W U B p n := by
  unfold bandGate gate
  simp only [h0, h1, hw, hu, hb]

end Cert.LstmCell.Point

end
-- ==== Proof.KernelArray.lean ====
/-
  From the grid points' bands to the whole result arrays.

  The grid has 16 points; point `t` is handed columns `256·t … 256·t + 255` of every weight matrix, of every bias (a
  `[1, 4096]` row made from the `[4096]` vector before the launch) and of the previous cell state, and the whole of `x`
  and `h` (converted to another float format before the launch, which changes no value here). It writes back columns
  `256·t … 256·t + 255` of the two results. By the previous module what it writes at row `p` and band column `q` is the
  specification's value computed from the band, and the band's column `q` is the whole arrays' column `256·t + q`: so
  point `t` writes block `t` of the specification's arrays. Every column `n` lies in exactly the band `n / 256`, so the
  sixteen bands cover the arrays, and after the run the two result arrays ARE the specification's.
-/
import proofs.«157825_j71176198029872_2_alg».proof.Proof.Gen.KernelIdeal.Value
import proofs.«157825_j71176198029872_2_alg».proof.Proof.KernelPoint
import Idealize.ShloMosaic.Lib.StableHlo.Run
import Idealize.ShloMosaic.Lib.ValueLayout
import Idealize.ShloMosaic.Lib.Pipeline.Value

noncomputable section

namespace Cert.LstmCell.Arr

open Cert.KernelIdeal Cert.KernelIdeal.Gen Idealize.ShloMosaic Idealize.ShloMosaic.ValueIdx Idealize.ShloMosaic.TcCoe
open Idealize.SL.Sem Idealize.ShloMosaic.StableHlo Cert.LstmCell.Point
open Idealize.ShloMosaic.Pipeline (Dat)

variable (m : (ℓ : Loc nD τ sig) → Buf (Elt Ideal) ℓ) (ρ : Dev nD → PrngReg)

/-- The fifteen argument arrays as launched, in the specification's order. -/
abbrev params (c : Dev nD) : Params :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14)⟩

/-! ## The arrays as the region finds them -/

/-- The format change before the launch leaves `x` as launched. -/
theorem V_x (c : Dev nD) : (V m c main_v0 : S1024x4096.Idx → EReal) = m ((c : Thread nD τ).loc main_arg0) := by
  dsimp only [Gen.V, Gen.hostOps0]; after_results; rfl
/-- The format change before the launch leaves `h` as launched. -/
theorem V_h (c : Dev nD) : (V m c main_v1 : S1024x4096.Idx → EReal) = m ((c : Thread nD τ).loc main_arg1) := by
  dsimp only [Gen.V, Gen.hostOps0]; after_results; rfl
/-- The format change before the launch leaves `Wi` as launched. -/
theorem V_Wi (c : Dev nD) : (V m c main_v2 : S4096x4096.Idx → EReal) = m ((c : Thread nD τ).loc main_arg3) := by
  dsimp only [Gen.V, Gen.hostOps0]; after_results; rfl
/-- The format change before the launch leaves `Wf` as launched. -/
theorem V_Wf (c : Dev nD) : (V m c main_v3 : S4096x4096.Idx → EReal) = m ((c : Thread nD τ).loc main_arg6) := by
  dsimp only [Gen.V, Gen.hostOps0]; after_results; rfl
/-- The format change before the launch leaves `Wg` as launched. -/
theorem V_Wg (c : Dev nD) : (V m c main_v4 : S4096x4096.Idx → EReal) = m ((c : Thread nD τ).loc main_arg9) := by
  dsimp only [Gen.V, Gen.hostOps0]; after_results; rfl
/-- The format change before the launch leaves `Wo` as launched. -/
theorem V_Wo (c : Dev nD) : (V m c main_v5 : S4096x4096.Idx → EReal) = m ((c : Thread nD τ).loc main_arg12) := by
  dsimp only [Gen.V, Gen.hostOps0]; after_results; rfl
/-- The format change before the launch leaves `Ui` as launched. -/
theorem V_Ui (c : Dev nD) : (V m c main_v6 : S4096x4096.Idx → EReal) = m ((c : Thread nD τ).loc main_arg4) := by
  dsimp only [Gen.V, Gen.hostOps0]; after_results; rfl
/-- The format change before the launch leaves `Uf` as launched. -/
theorem V_Uf (c : Dev nD) : (V m c main_v7 : S4096x4096.Idx → EReal) = m ((c : Thread nD τ).loc main_arg7) := by
  dsimp only [Gen.V, Gen.hostOps0]; after_results; rfl
/-- The format change before the launch leaves `Ug` as launched. -/
theorem V_Ug (c : Dev nD) : (V m c main_v8 : S4096x4096.Idx → EReal) = m ((c : Thread nD τ).loc main_arg10) := by
  dsimp only [Gen.V, Gen.hostOps0]; after_results; rfl
/-- The format change before the launch leaves `Uo` as launched. -/
theorem V_Uo (c : Dev nD) : (V m c main_v9 : S4096x4096.Idx → EReal) = m ((c : Thread nD τ).loc main_arg13) := by
  dsimp only [Gen.V, Gen.hostOps0]; after_results; rfl
/-- The bias `bi` reaches the region as a one-row matrix. -/
theorem V_bi (c : Dev nD) : (V m c main_v10 : S1x4096.Idx → EReal)
    = shapeCast S1x4096 (m ((c : Thread nD τ).loc main_arg5) : S4096.Idx → EReal) shapeCasts_S4096_S1x4096 := by
  dsimp only [Gen.V, Gen.hostOps0]; after_results; rfl
/-- The bias `bf` reaches the region as a one-row matrix. -/
theorem V_bf (c : Dev nD) : (V m c main_v11 : S1x4096.Idx → EReal)
    = shapeCast S1x4096 (m ((c : Thread nD τ).loc main_arg8) : S4096.Idx → EReal) shapeCasts_S4096_S1x4096 := by
  dsimp only [Gen.V, Gen.hostOps0]; after_results; rfl
/-- The bias `bg` reaches the region as a one-row matrix. -/
theorem V_bg (c : Dev nD) : (V m c main_v12 : S1x4096.Idx → EReal)
    = shapeCast S1x4096 (m ((c : Thread nD τ).loc main_arg11) : S4096.Idx → EReal) shapeCasts_S4096_S1x4096 := by
  dsimp only [Gen.V, Gen.hostOps0]; after_results; rfl
/-- The bias `bo` reaches the region as a one-row matrix. -/
theorem V_bo (c : Dev nD) : (V m c main_v13 : S1x4096.Idx → EReal)
    = shapeCast S1x4096 (m ((c : Thread nD τ).loc main_arg14) : S4096.Idx → EReal) shapeCasts_S4096_S1x4096 := by
  dsimp only [Gen.V, Gen.hostOps0]; after_results; rfl

/-! ## Where each window's block sits: `x` and `h` whole, every other window at band `t` -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 2) = 0 ∧ win0_10.index t (1 : Fin 2) = t.val :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)
theorem idx12 : ∀ t : Fin cfg0.N, win0_12.index t (0 : Fin 2) = 0 ∧ win0_12.index t (1 : Fin 2) = t.val :=
  (by decide +kernel : ∀ t : Fin grid0.N, _)
theorem idx13 : ∀ t : Fin cfg0.N, win0_13.index t (0 : Fin 2) = 0 ∧ win0_13.index t (1 : Fin 2) = t.val :=
  (by decide +kernel : ∀ t : Fin grid0.N, _)
theorem idx14 : ∀ t : Fin cfg0.N, win0_14.index t (0 : Fin 2) = 0 ∧ win0_14.index t (1 : Fin 2) = t.val :=
  (by decide +kernel : ∀ t : Fin grid0.N, _)
theorem idx15 : ∀ t : Fin cfg0.N, win0_15.index t (0 : Fin 2) = 0 ∧ win0_15.index t (1 : Fin 2) = t.val :=
  (by decide +kernel : ∀ t : Fin grid0.N, _)
theorem idx16 : ∀ t : Fin cfg0.N, win0_16.index t (0 : Fin 2) = 0 ∧ win0_16.index t (1 : Fin 2) = t.val :=
  (by decide +kernel : ∀ t : Fin grid0.N, _)

/-- Column `q` of band `t`. -/
def bandCol (t : Fin cfg0.N) (q : Fin 256) : Fin 4096 :=
  ⟨t.val * 256 + q.val, by have h : t.val < 16 := lt_of_lt_of_eq t.isLt N_0; have := q.isLt; omega⟩

theorem bandCol_val (t : Fin cfg0.N) (q : Fin 256) : (bandCol t q).val = t.val * 256 + q.val := rfl

/-! ## The blocks read back through the windows -/

/-- Row `p` of the block of `x` is row `p` of `x`. -/
theorem read_x (c : Dev nD) (t : Fin cfg0.N) (p : Fin 1024) (k : Fin 4096) :
    iblk m c 0 t (ix2 p k) = (params m c).x (ix2 p k) := by
  show V m c main_v0 (((cfg0.win 0).blk t).view.emb (ix2 p k)) = _
  rw [V_x]
  show m ((c : Thread nD τ).loc main_arg0) _ = m ((c : Thread nD τ).loc main_arg0) _
  refine congrArg _ (funext fun a => Fin.ext ?_)
  obtain ⟨e0, e1⟩ := idx0 t
  match a with
  | ⟨0, _⟩ => show win0_0.index t (0 : Fin 2) * 1024 + 1 * p.val = p.val; rw [e0]; omega
  | ⟨1, _⟩ => show win0_0.index t (1 : Fin 2) * 4096 + 1 * k.val = k.val; rw [e1]; omega
/-- Row `p` of the block of `h` is row `p` of `h`. -/
theorem read_h (c : Dev nD) (t : Fin cfg0.N) (p : Fin 1024) (k : Fin 4096) :
    iblk m c 1 t (ix2 p k) = (params m c).h (ix2 p k) := by
  show V m c main_v1 (((cfg0.win 1).blk t).view.emb (ix2 p k)) = _
  rw [V_h]
  show m ((c : Thread nD τ).loc main_arg1) _ = m ((c : Thread nD τ).loc main_arg1) _
  refine congrArg _ (funext fun a => Fin.ext ?_)
  obtain ⟨e0, e1⟩ := idx1 t
  match a with
  | ⟨0, _⟩ => show win0_1.index t (0 : Fin 2) * 1024 + 1 * p.val = p.val; rw [e0]; omega
  | ⟨1, _⟩ => show win0_1.index t (1 : Fin 2) * 4096 + 1 * k.val = k.val; rw [e1]; omega
/-- Entry `(p, q)` of the band of the previous cell state is entry `(p, 256·t + q)` of it. -/
theorem read_c (c : Dev nD) (t : Fin cfg0.N) (p : Fin 1024) (q : Fin 256) :
    iblk m c 2 t (ix2 p q) = (params m c).c (ix2 p (bandCol t q)) := by
  show V m c main_arg2 (((cfg0.win 2).blk t).view.emb (ix2 p q)) = _
  rw [V_main_arg2]
  show m ((c : Thread nD τ).loc main_arg2) _ = m ((c : Thread nD τ).loc main_arg2) _
  refine congrArg _ (funext fun a => Fin.ext ?_)
  obtain ⟨e0, e1⟩ := idx2 t
  match a with
  | ⟨0, _⟩ => show win0_2.index t (0 : Fin 2) * 1024 + 1 * p.val = p.val; rw [e0]; omega
  | ⟨1, _⟩ => show win0_2.index t (1 : Fin 2) * 256 + 1 * q.val = t.val * 256 + q.val; rw [e1]; omega
/-- Column `q` of the band of `Wi` is column `256·t + q` of `Wi`. -/
theorem read_Wi (c : Dev nD) (t : Fin cfg0.N) (k : Fin 4096) (q : Fin 256) :
    iblk m c 3 t (ix2 k q) = (params m c).Wi (ix2 k (bandCol t q)) := by
  show V m c main_v2 (((cfg0.win 3).blk t).view.emb (ix2 k q)) = _
  rw [V_Wi]
  show m ((c : Thread nD τ).loc main_arg3) _ = m ((c : Thread nD τ).loc main_arg3) _
  refine congrArg _ (funext fun a => Fin.ext ?_)
  obtain ⟨e0, e1⟩ := idx3 t
  match a with
  | ⟨0, _⟩ => show win0_3.index t (0 : Fin 2) * 4096 + 1 * k.val = k.val; rw [e0]; omega
  | ⟨1, _⟩ => show win0_3.index t (1 : Fin 2) * 256 + 1 * q.val = t.val * 256 + q.val; rw [e1]; omega
/-- Column `q` of the band of `Wf` is column `256·t + q` of `Wf`. -/
theorem read_Wf (c : Dev nD) (t : Fin cfg0.N) (k : Fin 4096) (q : Fin 256) :
    iblk m c 4 t (ix2 k q) = (params m c).Wf (ix2 k (bandCol t q)) := by
  show V m c main_v3 (((cfg0.win 4).blk t).view.emb (ix2 k q)) = _
  rw [V_Wf]
  show m ((c : Thread nD τ).loc main_arg6) _ = m ((c : Thread nD τ).loc main_arg6) _
  refine congrArg _ (funext fun a => Fin.ext ?_)
  obtain ⟨e0, e1⟩ := idx4 t
  match a with
  | ⟨0, _⟩ => show win0_4.index t (0 : Fin 2) * 4096 + 1 * k.val = k.val; rw [e0]; omega
  | ⟨1, _⟩ => show win0_4.index t (1 : Fin 2) * 256 + 1 * q.val = t.val * 256 + q.val; rw [e1]; omega
/-- Column `q` of the band of `Wg` is column `256·t + q` of `Wg`. -/
theorem read_Wg (c : Dev nD) (t : Fin cfg0.N) (k : Fin 4096) (q : Fin 256) :
    iblk m c 5 t (ix2 k q) = (params m c).Wg (ix2 k (bandCol t q)) := by
  show V m c main_v4 (((cfg0.win 5).blk t).view.emb (ix2 k q)) = _
  rw [V_Wg]
  show m ((c : Thread nD τ).loc main_arg9) _ = m ((c : Thread nD τ).loc main_arg9) _
  refine congrArg _ (funext fun a => Fin.ext ?_)
  obtain ⟨e0, e1⟩ := idx5 t
  match a with
  | ⟨0, _⟩ => show win0_5.index t (0 : Fin 2) * 4096 + 1 * k.val = k.val; rw [e0]; omega
  | ⟨1, _⟩ => show win0_5.index t (1 : Fin 2) * 256 + 1 * q.val = t.val * 256 + q.val; rw [e1]; omega
/-- Column `q` of the band of `Wo` is column `256·t + q` of `Wo`. -/
theorem read_Wo (c : Dev nD) (t : Fin cfg0.N) (k : Fin 4096) (q : Fin 256) :
    iblk m c 6 t (ix2 k q) = (params m c).Wo (ix2 k (bandCol t q)) := by
  show V m c main_v5 (((cfg0.win 6).blk t).view.emb (ix2 k q)) = _
  rw [V_Wo]
  show m ((c : Thread nD τ).loc main_arg12) _ = m ((c : Thread nD τ).loc main_arg12) _
  refine congrArg _ (funext fun a => Fin.ext ?_)
  obtain ⟨e0, e1⟩ := idx6 t
  match a with
  | ⟨0, _⟩ => show win0_6.index t (0 : Fin 2) * 4096 + 1 * k.val = k.val; rw [e0]; omega
  | ⟨1, _⟩ => show win0_6.index t (1 : Fin 2) * 256 + 1 * q.val = t.val * 256 + q.val; rw [e1]; omega
/-- Column `q` of the band of `Ui` is column `256·t + q` of `Ui`. -/
theorem read_Ui (c : Dev nD) (t : Fin cfg0.N) (k : Fin 4096) (q : Fin 256) :
    iblk m c 7 t (ix2 k q) = (params m c).Ui (ix2 k (bandCol t q)) := by
  show V m c main_v6 (((cfg0.win 7).blk t).view.emb (ix2 k q)) = _
  rw [V_Ui]
  show m ((c : Thread nD τ).loc main_arg4) _ = m ((c : Thread nD τ).loc main_arg4) _
  refine congrArg _ (funext fun a => Fin.ext ?_)
  obtain ⟨e0, e1⟩ := idx7 t
  match a with
  | ⟨0, _⟩ => show win0_7.index t (0 : Fin 2) * 4096 + 1 * k.val = k.val; rw [e0]; omega
  | ⟨1, _⟩ => show win0_7.index t (1 : Fin 2) * 256 + 1 * q.val = t.val * 256 + q.val; rw [e1]; omega
/-- Column `q` of the band of `Uf` is column `256·t + q` of `Uf`. -/
theorem read_Uf (c : Dev nD) (t : Fin cfg0.N) (k : Fin 4096) (q : Fin 256) :
    iblk m c 8 t (ix2 k q) = (params m c).Uf (ix2 k (bandCol t q)) := by
  show V m c main_v7 (((cfg0.win 8).blk t).view.emb (ix2 k q)) = _
  rw [V_Uf]
  show m ((c : Thread nD τ).loc main_arg7) _ = m ((c : Thread nD τ).loc main_arg7) _
  refine congrArg _ (funext fun a => Fin.ext ?_)
  obtain ⟨e0, e1⟩ := idx8 t
  match a with
  | ⟨0, _⟩ => show win0_8.index t (0 : Fin 2) * 4096 + 1 * k.val = k.val; rw [e0]; omega
  | ⟨1, _⟩ => show win0_8.index t (1 : Fin 2) * 256 + 1 * q.val = t.val * 256 + q.val; rw [e1]; omega
/-- Column `q` of the band of `Ug` is column `256·t + q` of `Ug`. -/
theorem read_Ug (c : Dev nD) (t : Fin cfg0.N) (k : Fin 4096) (q : Fin 256) :
    iblk m c 9 t (ix2 k q) = (params m c).Ug (ix2 k (bandCol t q)) := by
  show V m c main_v8 (((cfg0.win 9).blk t).view.emb (ix2 k q)) = _
  rw [V_Ug]
  show m ((c : Thread nD τ).loc main_arg10) _ = m ((c : Thread nD τ).loc main_arg10) _
  refine congrArg _ (funext fun a => Fin.ext ?_)
  obtain ⟨e0, e1⟩ := idx9 t
  match a with
  | ⟨0, _⟩ => show win0_9.index t (0 : Fin 2) * 4096 + 1 * k.val = k.val; rw [e0]; omega
  | ⟨1, _⟩ => show win0_9.index t (1 : Fin 2) * 256 + 1 * q.val = t.val * 256 + q.val; rw [e1]; omega
/-- Column `q` of the band of `Uo` is column `256·t + q` of `Uo`. -/
theorem read_Uo (c : Dev nD) (t : Fin cfg0.N) (k : Fin 4096) (q : Fin 256) :
    iblk m c 10 t (ix2 k q) = (params m c).Uo (ix2 k (bandCol t q)) := by
  show V m c main_v9 (((cfg0.win 10).blk t).view.emb (ix2 k q)) = _
  rw [V_Uo]
  show m ((c : Thread nD τ).loc main_arg13) _ = m ((c : Thread nD τ).loc main_arg13) _
  refine congrArg _ (funext fun a => Fin.ext ?_)
  obtain ⟨e0, e1⟩ := idx10 t
  match a with
  | ⟨0, _⟩ => show win0_10.index t (0 : Fin 2) * 4096 + 1 * k.val = k.val; rw [e0]; omega
  | ⟨1, _⟩ => show win0_10.index t (1 : Fin 2) * 256 + 1 * q.val = t.val * 256 + q.val; rw [e1]; omega
/-- Entry `q` of the band of the bias row `bi` is entry `256·t + q` of the bias vector. -/
theorem read_bi (c : Dev nD) (t : Fin cfg0.N) (q : Fin 256) :
    iblk m c 11 t (ix2 (0 : Fin 1) q) = (params m c).bi (ix1 (bandCol t q)) := by
  show V m c main_v10 (((cfg0.win 11).blk t).view.emb (ix2 (0 : Fin 1) q)) = _
  rw [V_bi]
  have he : ((cfg0.win 11).blk t).view.emb (ix2 (0 : Fin 1) q) = (ix2 (0 : Fin 1) (bandCol t q) : S1x4096.Idx) := by
    funext a; apply Fin.ext
    obtain ⟨e0, e1⟩ := idx11 t
    match a with
    | ⟨0, _⟩ => show win0_11.index t (0 : Fin 2) * 1 + 1 * 0 = 0; rw [e0]
    | ⟨1, _⟩ => show win0_11.index t (1 : Fin 2) * 256 + 1 * q.val = t.val * 256 + q.val; rw [e1]; omega
  rw [he]
  exact shapeCast_a_1a_apply _ _ 0 (bandCol t q)
/-- Entry `q` of the band of the bias row `bf` is entry `256·t + q` of the bias vector. -/
theorem read_bf (c : Dev nD) (t : Fin cfg0.N) (q : Fin 256) :
    iblk m c 12 t (ix2 (0 : Fin 1) q) = (params m c).bf (ix1 (bandCol t q)) := by
  show V m c main_v11 (((cfg0.win 12).blk t).view.emb (ix2 (0 : Fin 1) q)) = _
  rw [V_bf]
  have he : ((cfg0.win 12).blk t).view.emb (ix2 (0 : Fin 1) q) = (ix2 (0 : Fin 1) (bandCol t q) : S1x4096.Idx) := by
    funext a; apply Fin.ext
    obtain ⟨e0, e1⟩ := idx12 t
    match a with
    | ⟨0, _⟩ => show win0_12.index t (0 : Fin 2) * 1 + 1 * 0 = 0; rw [e0]
    | ⟨1, _⟩ => show win0_12.index t (1 : Fin 2) * 256 + 1 * q.val = t.val * 256 + q.val; rw [e1]; omega
  rw [he]
  exact shapeCast_a_1a_apply _ _ 0 (bandCol t q)
/-- Entry `q` of the band of the bias row `bg` is entry `256·t + q` of the bias vector. -/
theorem read_bg (c : Dev nD) (t : Fin cfg0.N) (q : Fin 256) :
    iblk m c 13 t (ix2 (0 : Fin 1) q) = (params m c).bg (ix1 (bandCol t q)) := by
  show V m c main_v12 (((cfg0.win 13).blk t).view.emb (ix2 (0 : Fin 1) q)) = _
  rw [V_bg]
  have he : ((cfg0.win 13).blk t).view.emb (ix2 (0 : Fin 1) q) = (ix2 (0 : Fin 1) (bandCol t q) : S1x4096.Idx) := by
    funext a; apply Fin.ext
    obtain ⟨e0, e1⟩ := idx13 t
    match a with
    | ⟨0, _⟩ => show win0_13.index t (0 : Fin 2) * 1 + 1 * 0 = 0; rw [e0]
    | ⟨1, _⟩ => show win0_13.index t (1 : Fin 2) * 256 + 1 * q.val = t.val * 256 + q.val; rw [e1]; omega
  rw [he]
  exact shapeCast_a_1a_apply _ _ 0 (bandCol t q)
/-- Entry `q` of the band of the bias row `bo` is entry `256·t + q` of the bias vector. -/
theorem read_bo (c : Dev nD) (t : Fin cfg0.N) (q : Fin 256) :
    iblk m c 14 t (ix2 (0 : Fin 1) q) = (params m c).bo (ix1 (bandCol t q)) := by
  show V m c main_v13 (((cfg0.win 14).blk t).view.emb (ix2 (0 : Fin 1) q)) = _
  rw [V_bo]
  have he : ((cfg0.win 14).blk t).view.emb (ix2 (0 : Fin 1) q) = (ix2 (0 : Fin 1) (bandCol t q) : S1x4096.Idx) := by
    funext a; apply Fin.ext
    obtain ⟨e0, e1⟩ := idx14 t
    match a with
    | ⟨0, _⟩ => show win0_14.index t (0 : Fin 2) * 1 + 1 * 0 = 0; rw [e0]
    | ⟨1, _⟩ => show win0_14.index t (1 : Fin 2) * 256 + 1 * q.val = t.val * 256 + q.val; rw [e1]; omega
  rw [he]
  exact shapeCast_a_1a_apply _ _ 0 (bandCol t q)

/-! ## A point's band is a band of the specification -/

theorem gate_i (c : Dev nD) (t : Fin cfg0.N) (p : Fin 1024) (q : Fin 256) :
    bandGate (iblk m c 0 t) (iblk m c 1 t) (iblk m c 3 t) (iblk m c 7 t) (iblk m c 11 t) p q
      = gate (params m c).x (params m c).h (params m c).Wi (params m c).Ui (params m c).bi p (bandCol t q) :=
  bandGate_eq_gate (params m c).x (params m c).h (params m c).Wi (params m c).Ui (params m c).bi
    (iblk m c 0 t) (iblk m c 1 t) (iblk m c 3 t) (iblk m c 7 t) (iblk m c 11 t) p q (bandCol t q)
    (read_x m c t p) (read_h m c t p) (fun k => read_Wi m c t k q) (fun k => read_Ui m c t k q) (read_bi m c t q)
theorem gate_f (c : Dev nD) (t : Fin cfg0.N) (p : Fin 1024) (q : Fin 256) :
    bandGate (iblk m c 0 t) (iblk m c 1 t) (iblk m c 4 t) (iblk m c 8 t) (iblk m c 12 t) p q
      = gate (params m c).x (params m c).h (params m c).Wf (params m c).Uf (params m c).bf p (bandCol t q) :=
  bandGate_eq_gate (params m c).x (params m c).h (params m c).Wf (params m c).Uf (params m c).bf
    (iblk m c 0 t) (iblk m c 1 t) (iblk m c 4 t) (iblk m c 8 t) (iblk m c 12 t) p q (bandCol t q)
    (read_x m c t p) (read_h m c t p) (fun k => read_Wf m c t k q) (fun k => read_Uf m c t k q) (read_bf m c t q)
theorem gate_g (c : Dev nD) (t : Fin cfg0.N) (p : Fin 1024) (q : Fin 256) :
    bandGate (iblk m c 0 t) (iblk m c 1 t) (iblk m c 5 t) (iblk m c 9 t) (iblk m c 13 t) p q
      = gate (params m c).x (params m c).h (params m c).Wg (params m c).Ug (params m c).bg p (bandCol t q) :=
  bandGate_eq_gate (params m c).x (params m c).h (params m c).Wg (params m c).Ug (params m c).bg
    (iblk m c 0 t) (iblk m c 1 t) (iblk m c 5 t) (iblk m c 9 t) (iblk m c 13 t) p q (bandCol t q)
    (read_x m c t p) (read_h m c t p) (fun k => read_Wg m c t k q) (fun k => read_Ug m c t k q) (read_bg m c t q)
theorem gate_o (c : Dev nD) (t : Fin cfg0.N) (p : Fin 1024) (q : Fin 256) :
    bandGate (iblk m c 0 t) (iblk m c 1 t) (iblk m c 6 t) (iblk m c 10 t) (iblk m c 14 t) p q
      = gate (params m c).x (params m c).h (params m c).Wo (params m c).Uo (params m c).bo p (bandCol t q) :=
  bandGate_eq_gate (params m c).x (params m c).h (params m c).Wo (params m c).Uo (params m c).bo
    (iblk m c 0 t) (iblk m c 1 t) (iblk m c 6 t) (iblk m c 10 t) (iblk m c 14 t) p q (bandCol t q)
    (read_x m c t p) (read_h m c t p) (fun k => read_Wo m c t k q) (fun k => read_Uo m c t k q) (read_bo m c t q)

/-- The new cell state over band `t` is the specification's at column `256·t + q`. -/
theorem cell_band (c : Dev nD) (t : Fin cfg0.N) (p : Fin 1024) (q : Fin 256) :
    bandCell (iblk m c 0 t) (iblk m c 1 t) (iblk m c 2 t) (iblk m c 3 t) (iblk m c 7 t) (iblk m c 11 t) (iblk m c 4 t) (iblk m c 8 t) (iblk m c 12 t) (iblk m c 5 t) (iblk m c 9 t) (iblk m c 13 t) p q
      = cellAt (params m c) p (bandCol t q) := by
  unfold bandCell cellAt
  rw [gate_i m c t p q, gate_f m c t p q, gate_g m c t p q, read_c m c t p q]

/-- The new hidden state over band `t` likewise. -/
theorem hidden_band (c : Dev nD) (t : Fin cfg0.N) (p : Fin 1024) (q : Fin 256) :
    bandHidden (iblk m c 0 t) (iblk m c 1 t) (iblk m c 2 t) (iblk m c 3 t) (iblk m c 7 t) (iblk m c 11 t) (iblk m c 4 t) (iblk m c 8 t) (iblk m c 12 t) (iblk m c 5 t) (iblk m c 9 t) (iblk m c 13 t) (iblk m c 6 t) (iblk m c 10 t) (iblk m c 14 t) p q
      = hiddenAt (params m c) p (bandCol t q) := by
  unfold bandHidden hiddenAt
  rw [gate_o m c t p q, cell_band m c t p q]

/-! ## What each point writes back -/

theorem emb15 (t : Fin cfg0.N) (p : Fin 1024) (q : Fin 256) :
    ((cfg0.win 15).blk t).view.emb (ix2 p q) = (ix2 p (bandCol t q) : S1024x4096.Idx) := by
  funext a; apply Fin.ext
  obtain ⟨e0, e1⟩ := idx15 t
  match a with
  | ⟨0, _⟩ => show win0_15.index t (0 : Fin 2) * 1024 + 1 * p.val = p.val; rw [e0]; omega
  | ⟨1, _⟩ => show win0_15.index t (1 : Fin 2) * 256 + 1 * q.val = t.val * 256 + q.val; rw [e1]; omega

/-- Point `t` writes back block `t` of the specification's array. -/
theorem flushed15_eq (c : Dev nD) (t : Fin cfg0.N) :
    (dats m 0 c).flushed 15 t = ((cfg0.win 15).blk t).view.read (Elt Ideal) (hiddenArr (params m c)) := by
  rw [Cert.KernelIdeal.Value.flushed15]
  funext y
  obtain ⟨p, q, rfl⟩ : ∃ (p : Fin 1024) (q : Fin 256), y = ix2 p q := ⟨y 0, y 1, eq_ix2 y⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
    = hiddenArr (params m c) (((cfg0.win 15).blk t).view.emb (ix2 p q))
  rw [emb15 t p q]
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  exact hidden_band m c t p q

/-- An index of the array is in point `t`'s block iff each coordinate is in the block's range on its axis. -/
theorem mem_blk15 (t : Fin cfg0.N) (i : S1024x4096.Idx) :
    i ∈ ((cfg0.win 15).blk t).view.set ↔ ∀ a : Fin 2, win0_15.index t a * S1024x256.size a ≤ (i a).val
      ∧ (i a).val < win0_15.index t a * S1024x256.size a + S1024x256.size a := by
  show i ∈ ((View.whole main_v14_0).slice (win0_15.rect t)).set ↔ _
  rw [View.set_slice_whole, Rect.mem_set_unit]
  exact Iff.rfl

/-- Every index lies in the block of the band its column falls in. -/
theorem cover15 (i : S1024x4096.Idx) :
    ∃ t : Fin cfg0.N, (cfg0.win 15).flush t = true ∧ i ∈ ((cfg0.win 15).blk t).view.set := by
  have hi0 : (i 0).val < 1024 := (i 0).isLt
  have hi1 : (i 1).val < 4096 := (i 1).isLt
  have hN : (i 1).val / 256 < grid0.N := by rw [N_0]; omega
  obtain ⟨e0, e1⟩ := idx15 ⟨(i 1).val / 256, hN⟩
  refine ⟨⟨(i 1).val / 256, hN⟩, flush0_15 _, ?_⟩
  rw [mem_blk15]
  intro a
  match a with
  | ⟨0, _⟩ =>
    show win0_15.index ⟨(i 1).val / 256, hN⟩ (0 : Fin 2) * 1024 ≤ (i 0).val
      ∧ (i 0).val < win0_15.index ⟨(i 1).val / 256, hN⟩ (0 : Fin 2) * 1024 + 1024
    rw [e0]; omega
  | ⟨1, _⟩ =>
    show win0_15.index ⟨(i 1).val / 256, hN⟩ (1 : Fin 2) * 256 ≤ (i 1).val
      ∧ (i 1).val < win0_15.index ⟨(i 1).val / 256, hN⟩ (1 : Fin 2) * 256 + 256
    rw [e1]
    show (i 1).val / 256 * 256 ≤ (i 1).val ∧ (i 1).val < (i 1).val / 256 * 256 + 256
    omega

/-- After the run the array is the specification's. -/
theorem final15 (c : Dev nD) : (dats m 0 c).arrAt 15 cfg0.N = hiddenArr (params m c) :=
  (dats m 0 c).arrAt_eq_of_cover 15 (hiddenArr (params m c)) (fun t _ => flushed15_eq m c t) cover15

theorem emb16 (t : Fin cfg0.N) (p : Fin 1024) (q : Fin 256) :
    ((cfg0.win 16).blk t).view.emb (ix2 p q) = (ix2 p (bandCol t q) : S1024x4096.Idx) := by
  funext a; apply Fin.ext
  obtain ⟨e0, e1⟩ := idx16 t
  match a with
  | ⟨0, _⟩ => show win0_16.index t (0 : Fin 2) * 1024 + 1 * p.val = p.val; rw [e0]; omega
  | ⟨1, _⟩ => show win0_16.index t (1 : Fin 2) * 256 + 1 * q.val = t.val * 256 + q.val; rw [e1]; omega

/-- Point `t` writes back block `t` of the specification's array. -/
theorem flushed16_eq (c : Dev nD) (t : Fin cfg0.N) :
    (dats m 0 c).flushed 16 t = ((cfg0.win 16).blk t).view.read (Elt Ideal) (cellArr (params m c)) := by
  rw [Cert.KernelIdeal.Value.flushed16]
  funext y
  obtain ⟨p, q, rfl⟩ : ∃ (p : Fin 1024) (q : Fin 256), y = ix2 p q := ⟨y 0, y 1, eq_ix2 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
    = cellArr (params m c) (((cfg0.win 16).blk t).view.emb (ix2 p q))
  rw [emb16 t p q]
  refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  exact cell_band m c t p q

/-- An index of the array is in point `t`'s block iff each coordinate is in the block's range on its axis. -/
theorem mem_blk16 (t : Fin cfg0.N) (i : S1024x4096.Idx) :
    i ∈ ((cfg0.win 16).blk t).view.set ↔ ∀ a : Fin 2, win0_16.index t a * S1024x256.size a ≤ (i a).val
      ∧ (i a).val < win0_16.index t a * S1024x256.size a + S1024x256.size a := by
  show i ∈ ((View.whole main_v14_1).slice (win0_16.rect t)).set ↔ _
  rw [View.set_slice_whole, Rect.mem_set_unit]
  exact Iff.rfl

/-- Every index lies in the block of the band its column falls in. -/
theorem cover16 (i : S1024x4096.Idx) :
    ∃ t : Fin cfg0.N, (cfg0.win 16).flush t = true ∧ i ∈ ((cfg0.win 16).blk t).view.set := by
  have hi0 : (i 0).val < 1024 := (i 0).isLt
  have hi1 : (i 1).val < 4096 := (i 1).isLt
  have hN : (i 1).val / 256 < grid0.N := by rw [N_0]; omega
  obtain ⟨e0, e1⟩ := idx16 ⟨(i 1).val / 256, hN⟩
  refine ⟨⟨(i 1).val / 256, hN⟩, flush0_16 _, ?_⟩
  rw [mem_blk16]
  intro a
  match a with
  | ⟨0, _⟩ =>
    show win0_16.index ⟨(i 1).val / 256, hN⟩ (0 : Fin 2) * 1024 ≤ (i 0).val
      ∧ (i 0).val < win0_16.index ⟨(i 1).val / 256, hN⟩ (0 : Fin 2) * 1024 + 1024
    rw [e0]; omega
  | ⟨1, _⟩ =>
    show win0_16.index ⟨(i 1).val / 256, hN⟩ (1 : Fin 2) * 256 ≤ (i 1).val
      ∧ (i 1).val < win0_16.index ⟨(i 1).val / 256, hN⟩ (1 : Fin 2) * 256 + 256
    rw [e1]
    show (i 1).val / 256 * 256 ≤ (i 1).val ∧ (i 1).val < (i 1).val / 256 * 256 + 256
    omega

/-- After the run the array is the specification's. -/
theorem final16 (c : Dev nD) : (dats m 0 c).arrAt 16 cfg0.N = cellArr (params m c) :=
  (dats m 0 c).arrAt_eq_of_cover 16 (cellArr (params m c)) (fun t _ => flushed16_eq m c t) cover16

/-! ## The run -/

/-- Every weakly fair execution of the kernel's program terminates with its two results at the specification's new
    hidden state and new cell state of the arguments as launched, the arguments unchanged. -/
theorem run : θ_run defs (onTc (τ := τ) (main (F := Ideal))) ⟨m, fun _ => 0, ρ⟩ fun r => ∀ c : Dev nD,
      r.2.mem ((c : Thread nD τ).loc main_v14_0) = hiddenArr (params m c)
      ∧ r.2.mem ((c : Thread nD τ).loc main_v14_1) = cellArr (params m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Cert.KernelIdeal.Value.run_blocks m ρ)

end Cert.LstmCell.Arr

end
-- ==== Proof.lean ====
/-
  A fused LSTM cell kernel against its jnp reference, over the extended reals.

  Both programs compute, for every batch row `p` and hidden column `n`,
      z_g = (Σ_k x(p,k)·W_g(k,n) + Σ_k h(p,k)·U_g(k,n)) + b_g(n)          for the four gates g = i, f, g, o,
      c'(p,n) = σ(z_f)·c(p,n) + σ(z_i)·tanh(z_g),      h'(p,n) = σ(z_o)·tanh(c'(p,n)),      σ(z) = 1 / (1 + e^(-z)),
  and return `(h', c')` (Proof/Cell.lean).

  The kernel runs over 16 grid points; point `t` receives columns `256·t … 256·t + 255` of each weight matrix, bias and
  of `c`, forms the four pre-activations of that band with eight matrix products, and writes the band's columns of the
  two results (Proof/KernelPoint.lean: one point; Proof/KernelArray.lean: the sixteen bands cover the arrays, so the
  result arrays are the specification's). Before the launch it changes the float format of `x`, `h` and the weights,
  which over the extended reals changes nothing, and reshapes each bias to a row.

  The reference lays the four gates' weights side by side, forms ONE `[1024, 16384]` pre-activation and cuts it into
  four bands (Proof/RefRead.lean): column `g·4096 + n` of the wide array is gate `g`'s column `n`, the sums run over the
  same `k` and are added in the same order, and its sigmoid, spelt as the quotient, is the logistic function by
  definition. No law of arithmetic beyond this re-indexing is used, so the precondition (finite inputs) is never opened.

  The idealization rewrote no operation of the kernel, so the `preserves` claim is `True`. The three frames are the
  generated frame runs; the reference's is its generated run with the results dropped.
-/
import proofs.«157825_j71176198029872_2_alg».proof.Defs
import proofs.«157825_j71176198029872_2_alg».proof.Proof.Gen.Kernel
import proofs.«157825_j71176198029872_2_alg».proof.Proof.Gen.Kernel.Skeleton
import proofs.«157825_j71176198029872_2_alg».proof.Proof.Gen.Kernel.Launch
import proofs.«157825_j71176198029872_2_alg».proof.Proof.Gen.Kernel.Points
import proofs.«157825_j71176198029872_2_alg».proof.Proof.Gen.Kernel.Frame
import proofs.«157825_j71176198029872_2_alg».proof.Proof.Gen.KernelIdeal
import proofs.«157825_j71176198029872_2_alg».proof.Proof.Gen.KernelIdeal.Skeleton
import proofs.«157825_j71176198029872_2_alg».proof.Proof.Gen.KernelIdeal.Launch
import proofs.«157825_j71176198029872_2_alg».proof.Proof.Gen.KernelIdeal.Points
import proofs.«157825_j71176198029872_2_alg».proof.Proof.Gen.KernelIdeal.Frame
import proofs.«157825_j71176198029872_2_alg».proof.Proof.Gen.ReferenceIdeal
import proofs.«157825_j71176198029872_2_alg».proof.Proof.Gen.Pre_finite_inputs
import proofs.«157825_j71176198029872_2_alg».proof.Proof.Gen.KernelIdeal.Value
import proofs.«157825_j71176198029872_2_alg».proof.Proof.Gen.ReferenceIdeal.Run
import proofs.«157825_j71176198029872_2_alg».proof.Proof.Gen.ReferenceIdeal.Read
import proofs.«157825_j71176198029872_2_alg».proof.Proof.RefRead
import proofs.«157825_j71176198029872_2_alg».proof.Proof.KernelArray
import Idealize.ShloMosaic.Adequacy
import Idealize.ShloMosaic.Init

noncomputable section

namespace Cert.Proof

open Idealize.ShloMosaic Idealize.SL.Sem Cert.LstmCell

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the fifteen arguments, the kernel's two result arrays end at the specification's new
    hidden and cell state of the arguments, and so do the reference's two results. -/
theorem algebraic : Cert.algebraic_KernelIdeal_ReferenceIdeal := by
  intro m ρ m' ρ' _ hagree
  refine ⟨fun c => hiddenArr (Arr.params m c), fun c => cellArr (Arr.params m c), Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, a0, a1, a2, a3, a4, a5, a6, a7, a8, a9, a10, a11, a12, a13, a14]
    exact Ref.hidden_eq _ _ _ _ _ _ _ _ _ _ _ _ _ _ _
  · obtain ⟨a0, a1, a2, a3, a4, a5, a6, a7, a8, a9, a10, a11, a12, a13, a14⟩ := hagree c
    rw [Cert.ReferenceIdeal.Read.val_main_v34_eq, a0, a1, a2, a3, a4, a5, a6, a7, a8, a9, a10, a11, a12, a13, a14]
    exact Ref.cell_eq _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
